-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x512x1024 : Shape := ⟨3, ![1, 512, 1024]⟩
abbrev S512x1024 : Shape := ⟨2, ![512, 1024]⟩
abbrev S1x1024 : Shape := ⟨2, ![1, 1024]⟩
abbrev S1x2048x1024 : Shape := ⟨3, ![1, 2048, 1024]⟩
abbrev S2048x1024 : Shape := ⟨2, ![2048, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S4x2048x1024, .bf16⟩
  | .hbm, ⟨11, _⟩ => ⟨S4x2048x1024, .bf16⟩
  | .hbm, ⟨12, _⟩ => ⟨S4x2048x1024, .bf16⟩
  | .hbm, ⟨13, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x512x1024, .f32⟩
  | .local _ .vmem, ⟨21, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  transposes_S2048x1024_p1_0_S1024x2048 : S2048x1024.Transposes [1, 0] S1024x2048
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  dot_S512x1024_S1024x1024_S512x1024_1_0_0_1_n_n_wf : DotDims.WF S512x1024 S1024x1024 S512x1024 [1] [0] [0] [1] [] []
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S4x2048x1024.size a
  hwx0_7 : ∀ i : grid0.Coords, EltTy.bits .bf16 = 32 ∨ (Rect.block (s := S4x2048x1024) S1x512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1024.size a ≤ S4x2048x1024.size a
  hwx0_8 : ∀ i : grid0.Coords, EltTy.bits .bf16 = 32 ∨ (Rect.block (s := S4x2048x1024) S1x512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S4x2048x1024.size a
  hwx0_9 : ∀ i : grid0.Coords, EltTy.bits .bf16 = 32 ∨ (Rect.block (s := S4x2048x1024) S1x512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S1x512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S1x512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S1x512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v3_0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KRun.lean ====
/-
  The run of the idealized program with its result named. The program is a stretch of host operations (the three
  weight matrices converted) followed by two kernel regions: the projections, then the attention. Every weakly fair
  execution terminates without a fault, and in the final state the result array holds what the last region's
  write-backs leave — the contents `W3` of the last boundary at the result's buffer — while the seven argument arrays
  are as launched. The boundary contents are a fold through the program: the host stretch applied to the launch
  memory, then each region's arrays replaced by what its pipeline leaves; the later modules read that fold back.
-/
import proofs.«113369_j47820165874215_2_alg».proof.Proof.Gen.KernelIdeal.Frame

set_option maxRecDepth 16384

noncomputable section

namespace Cert.KernelIdeal.AttnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends, nothing faulting, with the result array at the last boundary's contents and the
    arguments as launched: the launch over the program's three segments, the final thread state read against the
    final memory at every unscoped buffer, the result's buffer among them. -/
theorem run : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.AttnRun

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.ProjBody.lean ====
/-
  The projection kernel's body at an index. One grid point holds a [1, 512, 1024] block of the activations, a whole
  1024 × 1024 weight matrix and a bias of length 1024, and stores, for each of the three projections, the block's rows
  times the matrix plus the bias, row by row: at (0, r, e) the sum over d of block[0, r, d] · W[d, e], plus bias[e]. The
  changes of float format and the casts that add or drop the unit axis move no number.
-/
import proofs.«113369_j47820165874215_2_alg».proof.Proof.Gen.KernelIdeal.Skeleton
import proofs.«113369_j47820165874215_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.ProjBody

open Cert.KernelIdeal Cert.KernelIdeal.Gen Idealize.ShloMosaic Idealize.ShloMosaic.TcCoe Idealize.ShloMosaic.ValueIdx

/-- The kernel's product record is the plain 512 × 1024 by 1024 × 1024 one. -/
theorem dot_plain : dot_S512x1024_S1024x1024_S512x1024_1_0_0_1_n_n = DotDims.plain 512 1024 1024 := rfl

/-- Rows of the block times the matrix, plus the bias, at (r, e): the arithmetic shared by the three projections. -/
theorem affine_apply (x0 : Vec Ideal S1x512x1024 .f32) (w : Vec Ideal S1024x1024 .bf16) (b : Vec Ideal S1024 .f32)
    (r : Fin 512) (e : Fin 1024) :
    addf (matmul dot_S512x1024_S1024x1024_S512x1024_1_0_0_1_n_n none (k0_pay2 (F := Ideal) x0)
        (shapeCast S1024x1024 w shapeCasts_S1024x1024_S1024x1024 : FVec Ideal S1024x1024 .bf16) (constant S512x1024 .f32 0x00000000#32))
      (broadcastTo S512x1024 (shapeCast S1x1024 b shapeCasts_S1024_S1x1024 : FVec Ideal S1x1024 .f32) broadcasts_S1x1024_S512x1024 : FVec Ideal S512x1024 .f32) (ix2 r e)
      = (∑ d : Fin 1024, x0 (ix3 (0 : Fin 1) r d) * w (ix2 d e)) + b (ix1 e) := by
  refine (addf_apply _ _ _).trans ?_
  refine congrArg₂ (· + ·) ?_ ?_
  · refine (PlainDot.matmul_zero_apply (M := 512) (K := 1024) (N := 1024) none _ _ r e).trans ?_
    refine Finset.sum_congr rfl fun d _ => ?_
    refine congrArg₂ (· * ·) ?_ ?_
    · exact shapeCast_1ab_ab_apply x0 shapeCasts_S1x512x1024_S512x1024 r d
    · exact congrFun (shapeCast_self w shapeCasts_S1024x1024_S1024x1024) (ix2 d e)
  · exact (broadcastTo_1b_ab_apply _ broadcasts_S1x1024_S512x1024 r e).trans
      (shapeCast_a_1a_apply b shapeCasts_S1024_S1x1024 0 e)

/-- The first projection's stored block at (u, r, e). -/
theorem pay3_apply (x0 : Vec Ideal S1x512x1024 .f32) (w : Vec Ideal S1024x1024 .bf16) (b : Vec Ideal S1024 .f32)
    (u : Fin 1) (r : Fin 512) (e : Fin 1024) :
    k0_pay3 (F := Ideal) x0 w b (ix3 u r e) = (∑ d : Fin 1024, x0 (ix3 (0 : Fin 1) r d) * w (ix2 d e)) + b (ix1 e) := by
  unfold k0_pay3
  refine (shapeCast_ab_1ab_apply _ shapeCasts_S512x1024_S1x512x1024 u r e).trans ?_
  exact affine_apply x0 w b r e

/-- The second projection's stored block at (u, r, e). -/
theorem pay4_apply (x0 : Vec Ideal S1x512x1024 .f32) (w : Vec Ideal S1024x1024 .bf16) (b : Vec Ideal S1024 .f32)
    (u : Fin 1) (r : Fin 512) (e : Fin 1024) :
    k0_pay4 (F := Ideal) x0 w b (ix3 u r e) = (∑ d : Fin 1024, x0 (ix3 (0 : Fin 1) r d) * w (ix2 d e)) + b (ix1 e) := by
  unfold k0_pay4
  refine (shapeCast_ab_1ab_apply _ shapeCasts_S512x1024_S1x512x1024 u r e).trans ?_
  exact affine_apply x0 w b r e

/-- The third projection's stored block at (u, r, e). -/
theorem pay15_apply (x0 : Vec Ideal S1x512x1024 .f32) (w : Vec Ideal S1024x1024 .bf16) (b : Vec Ideal S1024 .f32)
    (u : Fin 1) (r : Fin 512) (e : Fin 1024) :
    k0_pay1 (F := Ideal) (k0_pay5 x0 w b) (ix3 u r e) = (∑ d : Fin 1024, x0 (ix3 (0 : Fin 1) r d) * w (ix2 d e)) + b (ix1 e) := by
  unfold k0_pay1 k0_pay5
  refine (shapeCast_ab_1ab_apply _ shapeCasts_S512x1024_S1x512x1024 u r e).trans ?_
  exact affine_apply x0 w b r e

end Cert.KernelIdeal.ProjBody

end
-- ==== Proof.Spec.lean ====
/-
  Single-head self-attention over a batch of four sequences of 2048 tokens of width 1024, as functions of
  extended-real arrays, index by index.

  The three projections are affine: `proj x w b` at (batch, token, e) is `∑ d, x[batch, token, d] · w[d, e] + b[e]`.
  A score is a scaled inner product of a query row and a key row, `(∑ d, Q[q, d] · K[k, d]) · c`. A row of scores
  is normalised by its maximum and exponentiated, `exp (S k - max S)`, and the output row is the weighted mean of
  the value rows.

  Two arrangements of that weighted mean are stated. In `fused` the unnormalised weights are applied to the value
  rows first and the weighted sum is divided, once, by the sum of the weights; the scale is the dyadic 2⁻⁵. In
  `softmaxThen` every weight is divided by the sum of the weights first (the softmax) and the quotients are applied to
  the value rows; the scale is the quotient `1 / √1024`, and the row maximum is taken once more against −∞. The two
  agree on real data (RealLaw.lean); here they are only stated.

  The float words stay words: `negInf` is the pattern of −∞, `zeroW` of 0, `oneW` of 1, `dW` of 1024, `scaleW` of 2⁻⁵.
-/
import Idealize.ShloMosaic.PureOps.Ideal
import Idealize.ShloMosaic.Lib.ValueIdx

noncomputable section

open scoped BigOperators

namespace Cert.Attention

open Idealize.ShloMosaic Idealize.ShloMosaic.ValueIdx

/-- Activations: batch × token × width. -/
abbrev SX : Shape := ⟨3, ![4, 2048, 1024]⟩
/-- A projection's weights: width × width. -/
abbrev SW : Shape := ⟨2, ![1024, 1024]⟩
/-- A projection's bias: width. -/
abbrev SB : Shape := ⟨1, ![1024]⟩

/-- The pattern of −∞, the value a row maximum starts from. -/
abbrev negInf : EReal := Ideal.ofBits .f32 0xFF800000#32
/-- The pattern of 0, the value a host sum starts from. -/
abbrev zeroW : EReal := Ideal.ofBits .f32 0x00000000#32
/-- The pattern of 1. -/
abbrev oneW : EReal := Ideal.ofBits .f32 0x3F800000#32
/-- The pattern of 1024, the width. -/
abbrev dW : EReal := Ideal.ofBits .f32 0x44800000#32
/-- The pattern of 2⁻⁵ = 1/32. -/
abbrev scaleW : EReal := Ideal.ofBits .f32 0x3D000000#32
/-- The scale as the quotient 1 / √1024. -/
abbrev scaleQ : EReal := Ideal.div oneW (Ideal.sqrt dW)

/-- An affine projection of the activations: at (batch, token, e) the inner product of the token's row with column
    `e` of the weights, plus the bias at `e`. -/
def proj (x : SX.Idx → EReal) (w : SW.Idx → EReal) (b : SB.Idx → EReal) (bt : Fin 4) (s : Fin 2048) (e : Fin 1024) : EReal :=
  (∑ d : Fin 1024, x (ix3 bt s d) * w (ix2 d e)) + b (ix1 e)

/-- The score of query token `q` against key token `k` in one batch: their rows' inner product, scaled by `c`. -/
def score (c : EReal) (Q K : Fin 4 → Fin 2048 → Fin 1024 → EReal) (bt : Fin 4) (q k : Fin 2048) : EReal :=
  (∑ d : Fin 1024, Q bt q d * K bt k d) * c

/-- The maximum of a row of scores, taken from −∞. -/
def rowMax (S : Fin 2048 → EReal) : EReal := (Finset.univ : Finset (Fin 2048)).fold max negInf S

/-- Weighted sum first, one division by the sum of the weights after. -/
def fusedRow (S V : Fin 2048 → EReal) : EReal :=
  Ideal.div (∑ k : Fin 2048, Ideal.exp (S k - rowMax S) * V k) (∑ k : Fin 2048, Ideal.exp (S k - rowMax S))

/-- Every weight divided by the sum of the weights first (the sum taken from the zero word, the maximum once more against
    −∞), the quotients applied to the values after. -/
def softmaxRow (S V : Fin 2048 → EReal) : EReal :=
  ∑ k : Fin 2048, Ideal.div (Ideal.exp (S k - max negInf (rowMax S)))
      (zeroW + ∑ k' : Fin 2048, Ideal.exp (S k' - max negInf (rowMax S))) * V k

/-- Self-attention with the weighted sum divided once, scale 2⁻⁵. -/
def fused (x : SX.Idx → EReal) (wq : SW.Idx → EReal) (bq : SB.Idx → EReal) (wk : SW.Idx → EReal) (bk : SB.Idx → EReal)
    (wv : SW.Idx → EReal) (bv : SB.Idx → EReal) : SX.Idx → EReal := fun i =>
  fusedRow (fun k => score scaleW (proj x wq bq) (proj x wk bk) (i 0) (i 1) k) (fun k => proj x wv bv (i 0) k (i 2))

/-- Self-attention with the softmax taken first, scale 1 / √1024. -/
def softmaxThen (x : SX.Idx → EReal) (wq : SW.Idx → EReal) (bq : SB.Idx → EReal) (wk : SW.Idx → EReal) (bk : SB.Idx → EReal)
    (wv : SW.Idx → EReal) (bv : SB.Idx → EReal) : SX.Idx → EReal := fun i =>
  softmaxRow (fun k => score scaleQ (proj x wq bq) (proj x wk bk) (i 0) (i 1) k) (fun k => proj x wv bv (i 0) k (i 2))

end Cert.Attention

end
-- ==== Proof.ProjValue.lean ====
/-
  The projection region's three output arrays as whole-array functions of the contents the region is entered with.
  The grid has one point per batch and per group of 512 token rows; point (b, g) reads rows 512 g … 512 g + 511 of
  batch b of the activations and the whole weight matrix and bias of each projection, and writes the same rows of the
  three outputs. An output's blocks tile its array, so after the region each output is, index by index,
  `∑ d, x[b, s, d] · W[d, e] + bias[e]` of the arrays as entered: what one point writes back is the block of that function
  (the body at an index, each input block read where the output's rectangle says), and every index lies in the block of
  the point of its batch and its row's group.
-/
import proofs.«113369_j47820165874215_2_alg».proof.Proof.Gen.KernelIdeal.Frame
import proofs.«113369_j47820165874215_2_alg».proof.Proof.ProjBody
import proofs.«113369_j47820165874215_2_alg».proof.Proof.Spec
import Idealize.ShloMosaic.Lib.Pipeline.Value
import Idealize.ShloMosaic.Lib.ValueIdx

set_option maxRecDepth 16384

noncomputable section

open scoped BigOperators

namespace Cert.KernelIdeal.ProjValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- An affine projection as an array: at (b, s, e), `∑ d, x[b, s, d] · w[d, e] + bias[e]`. -/
def projArr (x : S4x2048x1024.Idx → EReal) (w : S1024x1024.Idx → EReal) (b : S1024.Idx → EReal) : S4x2048x1024.Idx → EReal :=
  fun i => Cert.Attention.proj x w b (i 0) (i 1) (i 2)

/-- The printed index maps, decided over the grid: the activations' window and the three outputs' windows move together
    (block (b, g, 0) at point (b, g)), the weights' and biases' windows stay at block zero. -/
theorem idx_facts : ∀ t : Fin cfg0.N,
    win0_0.index t (0 : Fin 3) = win0_7.index t (0 : Fin 3) ∧ win0_0.index t (1 : Fin 3) = win0_7.index t (1 : Fin 3) ∧ win0_0.index t (2 : Fin 3) = 0
    ∧ win0_7.index t (0 : Fin 3) ≤ 3 ∧ win0_7.index t (1 : Fin 3) ≤ 3 ∧ win0_7.index t (2 : Fin 3) = 0
    ∧ win0_8.index t (0 : Fin 3) = win0_7.index t (0 : Fin 3) ∧ win0_8.index t (1 : Fin 3) = win0_7.index t (1 : Fin 3) ∧ win0_8.index t (2 : Fin 3) = 0
    ∧ win0_9.index t (0 : Fin 3) = win0_7.index t (0 : Fin 3) ∧ win0_9.index t (1 : Fin 3) = win0_7.index t (1 : Fin 3) ∧ win0_9.index t (2 : Fin 3) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0 :=
  (by decide +kernel : ∀ t : Fin grid0.N, _)

/-- Every block of an output is some point's. -/
theorem idx_onto7 : ∀ (q0 : Fin 4) (q1 : Fin 4), ∃ t : Fin cfg0.N, win0_7.index t = ![q0.val, q1.val, 0] :=
  (by decide +kernel : ∀ (q0 : Fin 4) (q1 : Fin 4), ∃ t : Fin grid0.N, win0_7.index t = ![q0.val, q1.val, 0])
theorem idx_onto8 : ∀ (q0 : Fin 4) (q1 : Fin 4), ∃ t : Fin cfg0.N, win0_8.index t = ![q0.val, q1.val, 0] :=
  (by decide +kernel : ∀ (q0 : Fin 4) (q1 : Fin 4), ∃ t : Fin grid0.N, win0_8.index t = ![q0.val, q1.val, 0])
theorem idx_onto9 : ∀ (q0 : Fin 4) (q1 : Fin 4), ∃ t : Fin cfg0.N, win0_9.index t = ![q0.val, q1.val, 0] :=
  (by decide +kernel : ∀ (q0 : Fin 4) (q1 : Fin 4), ∃ t : Fin grid0.N, win0_9.index t = ![q0.val, q1.val, 0])

/-! ## Output window 7: the query projection -/

/-- An index of the array is in point `t`'s block iff each coordinate is in the block's range on its axis. -/
theorem mem_blk7 (t : Fin cfg0.N) (i : S4x2048x1024.Idx) :
    i ∈ ((cfg0.win 7).blk t).view.set ↔ ∀ a : Fin 3, win0_7.index t a * S1x512x1024.size a ≤ (i a).val ∧ (i a).val < win0_7.index t a * S1x512x1024.size a + S1x512x1024.size a := by
  show i ∈ ((View.whole main_v3_0).slice (win0_7.rect t)).set ↔ _
  rw [View.set_slice_whole, Rect.mem_set_unit]
  exact Iff.rfl

/-- What point `t` writes back is block `t` of the projection of the arrays as the region finds them. -/
theorem flushed7_eq (c : Dev nD) (t : Fin cfg0.N) :
    (dat0 V c).flushed 7 t = ((cfg0.win 7).blk t).view.read (Elt Ideal) (projArr (V c main_arg0) (V c main_v0) (V c main_arg2)) := by
  show (cfg0.win 7).cut (grid0.coords t) ((dat0 V c).after 7 t) = _
  rw [after0_7]
  unfold out0_7
  rw [View.canon_unit_zero hz3]
  simp only [View.ld_unit_zero (S := S1x512x1024) hz3, View.ld_unit_zero (S := S1024x1024) hz2, View.ld_unit_zero (S := S1024) hz1]
  obtain ⟨e00, e01, e02, e70, e71, e72, e80, e81, e82, e90, e91, e92, z10, z11, z20, z30, z31, z40, z50, z51, z60⟩ := idx_facts t
  funext j
  obtain ⟨u, r, e, rfl⟩ : ∃ (u : Fin 1) (r : Fin 512) (e : Fin 1024), j = ix3 u r e := ⟨j 0, j 1, j 2, eq_ix3 j⟩
  show k0_pay3 (iblk0 V c 0 t) (iblk0 V c 1 t) (iblk0 V c 2 t) (ix3 u r e)
      = projArr (V c main_arg0) (V c main_v0) (V c main_arg2) (((cfg0.win 7).blk t).view.emb (ix3 u r e))
  refine (ProjBody.pay3_apply (iblk0 V c 0 t) (iblk0 V c 1 t) (iblk0 V c 2 t) u r e).trans ?_
  unfold projArr Cert.Attention.proj
  have hu : u.val = 0 := by omega
  have hr : r.val < 512 := r.isLt
  refine congrArg₂ (· + ·) (Finset.sum_congr rfl fun d _ => congrArg₂ (· * ·) ?_ ?_) ?_
  · show V c main_arg0 (((cfg0.win 0).blk t).view.emb (ix3 (0 : Fin 1) r d)) = V c main_arg0 _
    refine congrArg (V c main_arg0) (funext fun a => Fin.ext ?_)
    match a with
    | ⟨0, _⟩ => show win0_0.index t (0 : Fin 3) * 1 + 1 * 0 = win0_7.index t (0 : Fin 3) * 1 + 1 * u.val; omega
    | ⟨1, _⟩ => show win0_0.index t (1 : Fin 3) * 512 + 1 * r.val = win0_7.index t (1 : Fin 3) * 512 + 1 * r.val; omega
    | ⟨2, _⟩ => show win0_0.index t (2 : Fin 3) * 1024 + 1 * d.val = d.val; omega
  · show V c main_v0 (((cfg0.win 1).blk t).view.emb (ix2 d e)) = V c main_v0 _
    refine congrArg (V c main_v0) (funext fun a => Fin.ext ?_)
    match a with
    | ⟨0, _⟩ => show win0_1.index t (0 : Fin 2) * 1024 + 1 * d.val = d.val; omega
    | ⟨1, _⟩ => show win0_1.index t (1 : Fin 2) * 1024 + 1 * e.val = win0_7.index t (2 : Fin 3) * 1024 + 1 * e.val; omega
  · show V c main_arg2 (((cfg0.win 2).blk t).view.emb (ix1 e)) = V c main_arg2 _
    refine congrArg (V c main_arg2) (funext fun a => Fin.ext ?_)
    match a with
    | ⟨0, _⟩ => show win0_2.index t (0 : Fin 1) * 1024 + 1 * e.val = win0_7.index t (2 : Fin 3) * 1024 + 1 * e.val; omega

/-- Every index of the array is in some point's block: the point of its batch and of its row's group of 512. -/
theorem cover7 (i : S4x2048x1024.Idx) : ∃ t : Fin cfg0.N, (cfg0.win 7).flush t = true ∧ i ∈ ((cfg0.win 7).blk t).view.set := by
  have hi0 : (i 0).val < 4 := (i 0).isLt
  have hi1 : (i 1).val < 2048 := (i 1).isLt
  have hi2 : (i 2).val < 1024 := (i 2).isLt
  obtain ⟨t, ht⟩ := idx_onto7 ⟨(i 0).val, hi0⟩ ⟨(i 1).val / 512, by omega⟩
  have q0 : win0_7.index t (0 : Fin 3) = (i 0).val := congrFun ht 0
  have q1 : win0_7.index t (1 : Fin 3) = (i 1).val / 512 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 1024 ≤ (i 2).val ∧ (i 2).val < win0_7.index t (2 : Fin 3) * 1024 + 1024; omega

/-- The query array after the region: the projection of the region's entry contents. -/
theorem final7 (c : Dev nD) :
    (dat0 V c).arrAt 7 cfg0.N = projArr (V c main_arg0) (V c main_v0) (V c main_arg2) :=
  (dat0 V c).arrAt_eq_of_cover 7 (projArr (V c main_arg0) (V c main_v0) (V c main_arg2))
    (fun t _ => flushed7_eq V c t) cover7

/-! ## Output window 8: the key projection -/

/-- An index of the array is in point `t`'s block iff each coordinate is in the block's range on its axis. -/
theorem mem_blk8 (t : Fin cfg0.N) (i : S4x2048x1024.Idx) :
    i ∈ ((cfg0.win 8).blk t).view.set ↔ ∀ a : Fin 3, win0_8.index t a * S1x512x1024.size a ≤ (i a).val ∧ (i a).val < win0_8.index t a * S1x512x1024.size a + S1x512x1024.size a := by
  show i ∈ ((View.whole main_v3_1).slice (win0_8.rect t)).set ↔ _
  rw [View.set_slice_whole, Rect.mem_set_unit]
  exact Iff.rfl

/-- What point `t` writes back is block `t` of the projection of the arrays as the region finds them. -/
theorem flushed8_eq (c : Dev nD) (t : Fin cfg0.N) :
    (dat0 V c).flushed 8 t = ((cfg0.win 8).blk t).view.read (Elt Ideal) (projArr (V c main_arg0) (V c main_v1) (V c main_arg4)) := by
  show (cfg0.win 8).cut (grid0.coords t) ((dat0 V c).after 8 t) = _
  rw [after0_8]
  unfold out0_8
  rw [View.canon_unit_zero hz3]
  simp only [View.ld_unit_zero (S := S1x512x1024) hz3, View.ld_unit_zero (S := S1024x1024) hz2, View.ld_unit_zero (S := S1024) hz1]
  obtain ⟨e00, e01, e02, e70, e71, e72, e80, e81, e82, e90, e91, e92, z10, z11, z20, z30, z31, z40, z50, z51, z60⟩ := idx_facts t
  funext j
  obtain ⟨u, r, e, rfl⟩ : ∃ (u : Fin 1) (r : Fin 512) (e : Fin 1024), j = ix3 u r e := ⟨j 0, j 1, j 2, eq_ix3 j⟩
  show k0_pay4 (iblk0 V c 0 t) (iblk0 V c 3 t) (iblk0 V c 4 t) (ix3 u r e)
      = projArr (V c main_arg0) (V c main_v1) (V c main_arg4) (((cfg0.win 8).blk t).view.emb (ix3 u r e))
  refine (ProjBody.pay4_apply (iblk0 V c 0 t) (iblk0 V c 3 t) (iblk0 V c 4 t) u r e).trans ?_
  unfold projArr Cert.Attention.proj
  have hu : u.val = 0 := by omega
  have hr : r.val < 512 := r.isLt
  refine congrArg₂ (· + ·) (Finset.sum_congr rfl fun d _ => congrArg₂ (· * ·) ?_ ?_) ?_
  · show V c main_arg0 (((cfg0.win 0).blk t).view.emb (ix3 (0 : Fin 1) r d)) = V c main_arg0 _
    refine congrArg (V c main_arg0) (funext fun a => Fin.ext ?_)
    match a with
    | ⟨0, _⟩ => show win0_0.index t (0 : Fin 3) * 1 + 1 * 0 = win0_8.index t (0 : Fin 3) * 1 + 1 * u.val; omega
    | ⟨1, _⟩ => show win0_0.index t (1 : Fin 3) * 512 + 1 * r.val = win0_8.index t (1 : Fin 3) * 512 + 1 * r.val; omega
    | ⟨2, _⟩ => show win0_0.index t (2 : Fin 3) * 1024 + 1 * d.val = d.val; omega
  · show V c main_v1 (((cfg0.win 3).blk t).view.emb (ix2 d e)) = V c main_v1 _
    refine congrArg (V c main_v1) (funext fun a => Fin.ext ?_)
    match a with
    | ⟨0, _⟩ => show win0_3.index t (0 : Fin 2) * 1024 + 1 * d.val = d.val; omega
    | ⟨1, _⟩ => show win0_3.index t (1 : Fin 2) * 1024 + 1 * e.val = win0_8.index t (2 : Fin 3) * 1024 + 1 * e.val; omega
  · show V c main_arg4 (((cfg0.win 4).blk t).view.emb (ix1 e)) = V c main_arg4 _
    refine congrArg (V c main_arg4) (funext fun a => Fin.ext ?_)
    match a with
    | ⟨0, _⟩ => show win0_4.index t (0 : Fin 1) * 1024 + 1 * e.val = win0_8.index t (2 : Fin 3) * 1024 + 1 * e.val; omega

/-- Every index of the array is in some point's block: the point of its batch and of its row's group of 512. -/
theorem cover8 (i : S4x2048x1024.Idx) : ∃ t : Fin cfg0.N, (cfg0.win 8).flush t = true ∧ i ∈ ((cfg0.win 8).blk t).view.set := by
  have hi0 : (i 0).val < 4 := (i 0).isLt
  have hi1 : (i 1).val < 2048 := (i 1).isLt
  have hi2 : (i 2).val < 1024 := (i 2).isLt
  obtain ⟨t, ht⟩ := idx_onto8 ⟨(i 0).val, hi0⟩ ⟨(i 1).val / 512, by omega⟩
  have q0 : win0_8.index t (0 : Fin 3) = (i 0).val := congrFun ht 0
  have q1 : win0_8.index t (1 : Fin 3) = (i 1).val / 512 := congrFun ht 1
  have q2 : win0_8.index t (2 : Fin 3) = 0 := congrFun ht 2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 1024 ≤ (i 2).val ∧ (i 2).val < win0_8.index t (2 : Fin 3) * 1024 + 1024; omega

/-- The key array after the region: the projection of the region's entry contents. -/
theorem final8 (c : Dev nD) :
    (dat0 V c).arrAt 8 cfg0.N = projArr (V c main_arg0) (V c main_v1) (V c main_arg4) :=
  (dat0 V c).arrAt_eq_of_cover 8 (projArr (V c main_arg0) (V c main_v1) (V c main_arg4))
    (fun t _ => flushed8_eq V c t) cover8

/-! ## Output window 9: the value projection -/

/-- An index of the array is in point `t`'s block iff each coordinate is in the block's range on its axis. -/
theorem mem_blk9 (t : Fin cfg0.N) (i : S4x2048x1024.Idx) :
    i ∈ ((cfg0.win 9).blk t).view.set ↔ ∀ a : Fin 3, win0_9.index t a * S1x512x1024.size a ≤ (i a).val ∧ (i a).val < win0_9.index t a * S1x512x1024.size a + S1x512x1024.size a := by
  show i ∈ ((View.whole main_v3_2).slice (win0_9.rect t)).set ↔ _
  rw [View.set_slice_whole, Rect.mem_set_unit]
  exact Iff.rfl

/-- What point `t` writes back is block `t` of the projection of the arrays as the region finds them. -/
theorem flushed9_eq (c : Dev nD) (t : Fin cfg0.N) :
    (dat0 V c).flushed 9 t = ((cfg0.win 9).blk t).view.read (Elt Ideal) (projArr (V c main_arg0) (V c main_v2) (V c main_arg6)) := by
  show (cfg0.win 9).cut (grid0.coords t) ((dat0 V c).after 9 t) = _
  rw [after0_9]
  unfold out0_9
  rw [View.canon_unit_zero hz3]
  simp only [View.ld_unit_zero (S := S1x512x1024) hz3, View.ld_unit_zero (S := S1024x1024) hz2, View.ld_unit_zero (S := S1024) hz1]
  obtain ⟨e00, e01, e02, e70, e71, e72, e80, e81, e82, e90, e91, e92, z10, z11, z20, z30, z31, z40, z50, z51, z60⟩ := idx_facts t
  funext j
  obtain ⟨u, r, e, rfl⟩ : ∃ (u : Fin 1) (r : Fin 512) (e : Fin 1024), j = ix3 u r e := ⟨j 0, j 1, j 2, eq_ix3 j⟩
  show k0_pay1 (k0_pay5 (iblk0 V c 0 t) (iblk0 V c 5 t) (iblk0 V c 6 t)) (ix3 u r e)
      = projArr (V c main_arg0) (V c main_v2) (V c main_arg6) (((cfg0.win 9).blk t).view.emb (ix3 u r e))
  refine (ProjBody.pay15_apply (iblk0 V c 0 t) (iblk0 V c 5 t) (iblk0 V c 6 t) u r e).trans ?_
  unfold projArr Cert.Attention.proj
  have hu : u.val = 0 := by omega
  have hr : r.val < 512 := r.isLt
  refine congrArg₂ (· + ·) (Finset.sum_congr rfl fun d _ => congrArg₂ (· * ·) ?_ ?_) ?_
  · show V c main_arg0 (((cfg0.win 0).blk t).view.emb (ix3 (0 : Fin 1) r d)) = V c main_arg0 _
    refine congrArg (V c main_arg0) (funext fun a => Fin.ext ?_)
    match a with
    | ⟨0, _⟩ => show win0_0.index t (0 : Fin 3) * 1 + 1 * 0 = win0_9.index t (0 : Fin 3) * 1 + 1 * u.val; omega
    | ⟨1, _⟩ => show win0_0.index t (1 : Fin 3) * 512 + 1 * r.val = win0_9.index t (1 : Fin 3) * 512 + 1 * r.val; omega
    | ⟨2, _⟩ => show win0_0.index t (2 : Fin 3) * 1024 + 1 * d.val = d.val; omega
  · show V c main_v2 (((cfg0.win 5).blk t).view.emb (ix2 d e)) = V c main_v2 _
    refine congrArg (V c main_v2) (funext fun a => Fin.ext ?_)
    match a with
    | ⟨0, _⟩ => show win0_5.index t (0 : Fin 2) * 1024 + 1 * d.val = d.val; omega
    | ⟨1, _⟩ => show win0_5.index t (1 : Fin 2) * 1024 + 1 * e.val = win0_9.index t (2 : Fin 3) * 1024 + 1 * e.val; omega
  · show V c main_arg6 (((cfg0.win 6).blk t).view.emb (ix1 e)) = V c main_arg6 _
    refine congrArg (V c main_arg6) (funext fun a => Fin.ext ?_)
    match a with
    | ⟨0, _⟩ => show win0_6.index t (0 : Fin 1) * 1024 + 1 * e.val = win0_9.index t (2 : Fin 3) * 1024 + 1 * e.val; omega

/-- Every index of the array is in some point's block: the point of its batch and of its row's group of 512. -/
theorem cover9 (i : S4x2048x1024.Idx) : ∃ t : Fin cfg0.N, (cfg0.win 9).flush t = true ∧ i ∈ ((cfg0.win 9).blk t).view.set := by
  have hi0 : (i 0).val < 4 := (i 0).isLt
  have hi1 : (i 1).val < 2048 := (i 1).isLt
  have hi2 : (i 2).val < 1024 := (i 2).isLt
  obtain ⟨t, ht⟩ := idx_onto9 ⟨(i 0).val, hi0⟩ ⟨(i 1).val / 512, by omega⟩
  have q0 : win0_9.index t (0 : Fin 3) = (i 0).val := congrFun ht 0
  have q1 : win0_9.index t (1 : Fin 3) = (i 1).val / 512 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 1024 ≤ (i 2).val ∧ (i 2).val < win0_9.index t (2 : Fin 3) * 1024 + 1024; omega

/-- The value array after the region: the projection of the region's entry contents. -/
theorem final9 (c : Dev nD) :
    (dat0 V c).arrAt 9 cfg0.N = projArr (V c main_arg0) (V c main_v2) (V c main_arg6) :=
  (dat0 V c).arrAt_eq_of_cover 9 (projArr (V c main_arg0) (V c main_v2) (V c main_arg6))
    (fun t _ => flushed9_eq V c t) cover9

end Cert.KernelIdeal.ProjValue

end
-- ==== Proof.AttnBody.lean ====
/-
  The attention kernel's body at an index. One grid point holds a [1, 512, 1024] block of query rows and the whole
  [1, 2048, 1024] key and value arrays of its batch. The scores of query row r are its inner products with the 2048 key
  rows, scaled by 2⁻⁵; the row's maximum is subtracted, the differences exponentiated; the stored entry at (0, r, e) is
  the sum over the key rows k of weight[r, k] · value[0, k, e], divided by the sum of the weights of row r. The casts
  that add or drop a unit axis, the transpose of the key array and the changes of float format move no number.
-/
import proofs.«113369_j47820165874215_2_alg».proof.Proof.Gen.KernelIdeal.Skeleton
import proofs.«113369_j47820165874215_2_alg».proof.Proof.LibPlainDot
import proofs.«113369_j47820165874215_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.AttnBody

open Cert.KernelIdeal Cert.KernelIdeal.Gen Idealize.ShloMosaic Idealize.ShloMosaic.TcCoe Idealize.ShloMosaic.ValueIdx
open Cert.Attention (scaleW negInf rowMax fusedRow)

/-! ## A column vector: a length-a vector as an a × 1 matrix, and that column repeated along rows -/

/-- A length-a vector cast to a × 1 reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column broadcast to a × b reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The scores of a block of query rows -/

/-- The block's scores: query rows times the transposed key array, scaled. -/
def scoreBlk (v0 : Vec Ideal S1x512x1024 .bf16) (v2 : Vec Ideal S1x2048x1024 .bf16) : FVec Ideal S512x2048 .f32 :=
  mulf (matmul dot_S512x1024_S1024x2048_S512x2048_1_0_0_1_n_n none
        (shapeCast S512x1024 v0 shapeCasts_S1x512x1024_S512x1024 : FVec Ideal S512x1024 .bf16)
        (transpose S1024x2048 [1, 0] (shapeCast S2048x1024 v2 shapeCasts_S1x2048x1024_S2048x1024 : FVec Ideal S2048x1024 .bf16)
          transposes_S2048x1024_p1_0_S1024x2048 : FVec Ideal S1024x2048 .bf16)
        (constant S512x2048 .f32 0x00000000#32))
      (broadcast S512x2048 (Scalar.ofBits .f32 0x3D000000#32 : Ideal .f32))

/-- A score at (r, k): the inner product of query row r and key row k, scaled by 2⁻⁵. -/
theorem scoreBlk_apply (v0 : Vec Ideal S1x512x1024 .bf16) (v2 : Vec Ideal S1x2048x1024 .bf16) (r : Fin 512) (k : Fin 2048) :
    scoreBlk v0 v2 (ix2 r k) = (∑ d : Fin 1024, v0 (ix3 (0 : Fin 1) r d) * v2 (ix3 (0 : Fin 1) k d)) * scaleW := by
  unfold scoreBlk
  refine (mulf_apply _ _ _).trans ?_
  refine congrArg₂ (· * ·) ?_ rfl
  refine (PlainDot.matmul_zero_apply (M := 512) (K := 1024) (N := 2048) none _ _ r k).trans ?_
  refine Finset.sum_congr rfl fun d _ => congrArg₂ (· * ·) ?_ ?_
  · exact shapeCast_1ab_ab_apply v0 shapeCasts_S1x512x1024_S512x1024 r d
  · exact (transpose_ix2_apply _ transposes_S2048x1024_p1_0_S1024x2048 d k).trans
      (shapeCast_1ab_ab_apply v2 shapeCasts_S1x2048x1024_S2048x1024 k d)

/-! ## A row's maximum and a row's sum -/

/-- The reduced index r with column k put back is (r, k). -/
theorem lift_row (r : Fin 512) (k : Fin 2048) :
    reduces_S512x2048_S512.lift (ix1 r) k = ix2 r k := by
  funext c; apply Fin.ext
  match c with
  | ⟨0, _⟩ => rfl
  | ⟨1, _⟩ => rfl

/-- The maximum over the columns, from −∞, at row r. -/
theorem rowMax_apply (s : FVec Ideal S512x2048 .f32) (r : Fin 512) :
    multiReduction .maximumf [1] S512 s 0xFF800000#32 reduces_S512x2048_S512 (.inl rfl) rfl (ix1 r)
      = rowMax (fun k => s (ix2 r k)) := by
  refine (Ideal.multiReduction_maximumf_single s _ reduces_S512x2048_S512 _ _ (ix1 r)).trans ?_
  unfold rowMax
  exact congrArg (fun f : Fin 2048 → EReal => Finset.fold max negInf f Finset.univ) (funext fun k => congrArg s (lift_row r k))

/-- The sum over the columns at row r. -/
theorem rowSum_apply (s : FVec Ideal S512x2048 .f32) (r : Fin 512) :
    multiReduction .add [1] S512 s 0x00000000#32 reduces_S512x2048_S512 (.inl rfl) rfl (ix1 r)
      = ∑ k : Fin 2048, s (ix2 r k) := by
  refine (Ideal.multiReduction_add_single s _ reduces_S512x2048_S512 _ _ (ix1 r)).trans ?_
  exact Finset.sum_congr rfl fun k _ => congrArg s (lift_row r k)

/-! ## The unnormalised weights -/

/-- Each score less its row's maximum, exponentiated. -/
def expBlk (s : FVec Ideal S512x2048 .f32) : FVec Ideal S512x2048 .f32 :=
  exp (subf s (broadcastTo S512x2048
    (shapeCast S512x1 (multiReduction .maximumf [1] S512 s 0xFF800000#32 reduces_S512x2048_S512 (.inl rfl) rfl : FVec Ideal S512 .f32)
      shapeCasts_S512_S512x1 : FVec Ideal S512x1 .f32) broadcasts_S512x1_S512x2048 : FVec Ideal S512x2048 .f32))

/-- A weight at (r, k). -/
theorem expBlk_apply (s : FVec Ideal S512x2048 .f32) (r : Fin 512) (k : Fin 2048) :
    expBlk s (ix2 r k) = Ideal.exp (s (ix2 r k) - rowMax (fun k' => s (ix2 r k'))) := by
  unfold expBlk
  refine congrArg (fun z : EReal => Ideal.exp (s (ix2 r k) - z)) ?_
  exact ((broadcastTo_a1_ab_apply _ broadcasts_S512x1_S512x2048 r k).trans
    (shapeCast_a_a1_apply _ shapeCasts_S512_S512x1 r 0)).trans (rowMax_apply s r)

/-! ## The stored block -/

/-- The stored entry at (u, r, e): the weighted sum of the value rows divided by the sum of the weights. -/
theorem pay1_apply (v0 : Vec Ideal S1x512x1024 .bf16) (v2 v4 : Vec Ideal S1x2048x1024 .bf16)
    (u : Fin 1) (r : Fin 512) (e : Fin 1024) :
    k1_pay1 (F := Ideal) v0 v2 v4 (ix3 u r e)
      = fusedRow (fun k => (∑ d : Fin 1024, v0 (ix3 (0 : Fin 1) r d) * v2 (ix3 (0 : Fin 1) k d)) * scaleW)
          (fun k => v4 (ix3 (0 : Fin 1) k e)) := by
  unfold k1_pay1
  refine (shapeCast_ab_1ab_apply _ shapeCasts_S512x1024_S1x512x1024 u r e).trans ?_
  show Ideal.div
      (matmul dot_S512x2048_S2048x1024_S512x1024_1_0_0_1_n_n none
        (truncf .bf16 (expBlk (scoreBlk v0 v2)) bitsLt_bf16_f32 : FVec Ideal S512x2048 .bf16)
        (shapeCast S2048x1024 v4 shapeCasts_S1x2048x1024_S2048x1024 : FVec Ideal S2048x1024 .bf16)
        (constant S512x1024 .f32 0x00000000#32) (ix2 r e))
      ((broadcastTo S512x1024
        (shapeCast S512x1 (multiReduction .add [1] S512 (expBlk (scoreBlk v0 v2)) 0x00000000#32 reduces_S512x2048_S512 (.inl rfl) rfl : FVec Ideal S512 .f32)
          shapeCasts_S512_S512x1 : FVec Ideal S512x1 .f32) broadcasts_S512x1_S512x1024 : FVec Ideal S512x1024 .f32) (ix2 r e)) = _
  unfold fusedRow
  have hS : (fun k => scoreBlk v0 v2 (ix2 r k))
      = fun k => (∑ d : Fin 1024, v0 (ix3 (0 : Fin 1) r d) * v2 (ix3 (0 : Fin 1) k d)) * scaleW :=
    funext fun k => scoreBlk_apply v0 v2 r k
  have hE : ∀ k, expBlk (scoreBlk v0 v2) (ix2 r k)
      = Ideal.exp ((∑ d : Fin 1024, v0 (ix3 (0 : Fin 1) r d) * v2 (ix3 (0 : Fin 1) k d)) * scaleW
          - rowMax (fun k' => (∑ d : Fin 1024, v0 (ix3 (0 : Fin 1) r d) * v2 (ix3 (0 : Fin 1) k' d)) * scaleW)) := fun k => by
    rw [expBlk_apply, hS, scoreBlk_apply]
  refine congrArg₂ Ideal.div ?_ ?_
  · refine (PlainDot.matmul_zero_apply (M := 512) (K := 2048) (N := 1024) none _ _ r e).trans ?_
    exact Finset.sum_congr rfl fun k _ => congrArg₂ (· * ·) (hE k) (shapeCast_1ab_ab_apply v4 shapeCasts_S1x2048x1024_S2048x1024 k e)
  · refine ((broadcastTo_a1_ab_apply _ broadcasts_S512x1_S512x1024 r e).trans
      (shapeCast_a_a1_apply _ shapeCasts_S512_S512x1 r 0)).trans ?_
    exact (rowSum_apply _ r).trans (Finset.sum_congr rfl fun k _ => hE k)

end Cert.KernelIdeal.AttnBody

end
-- ==== Proof.AttnValue.lean ====
/-
  The attention region's output array as a whole-array function of the contents the region is entered with. The grid
  has one point per batch and per group of 512 query rows; point (b, g) reads rows 512 g … 512 g + 511 of batch b of the
  query array and ALL 2048 rows of batch b of the key and value arrays, and writes the same rows of the output. The
  output's blocks tile its array, so after the region the output at (b, q, e) is the weighted mean over the key rows k of
  value[b, k, e], the weights `exp (score[q, k] - max score[q, ·])` of the scaled inner products of query row q with the key
  rows, the weighted sum divided once by the sum of the weights.
-/
import proofs.«113369_j47820165874215_2_alg».proof.Proof.Gen.KernelIdeal.Frame
import proofs.«113369_j47820165874215_2_alg».proof.Proof.AttnBody
import proofs.«113369_j47820165874215_2_alg».proof.Proof.Spec
import Idealize.ShloMosaic.Lib.Pipeline.Value
import Idealize.ShloMosaic.Lib.ValueIdx

set_option maxRecDepth 16384

noncomputable section

open scoped BigOperators

namespace Cert.KernelIdeal.AttnValue

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Attention (scaleW fusedRow)

variable (V : (c : Dev nD) → (b : Ref sig .tc) → Buf (Elt Ideal) ((c : Thread nD τ).loc b))

theorem hz3 : (![0, 0, 0] : Fin 3 → Nat) = fun _ => 0 := funext fun a => by fin_cases a <;> rfl

/-- Attention of three arrays of rows: at (b, q, e) the weighted mean of the value rows of batch b at column e, under
    the weights of query row q against the key rows of batch b. -/
def attnArr (Q K W : S4x2048x1024.Idx → EReal) : S4x2048x1024.Idx → EReal := fun i =>
  fusedRow (fun k => (∑ d : Fin 1024, Q (ix3 (i 0) (i 1) d) * K (ix3 (i 0) k d)) * scaleW) (fun k => W (ix3 (i 0) k (i 2)))

/-- The printed index maps, decided over the grid: the query window and the output window move together (block
    (b, g, 0) at point (b, g)); the key and value windows follow the batch only (block (b, 0, 0)). -/
theorem idx_facts : ∀ t : Fin cfg1.N,
    win1_0.index t (0 : Fin 3) = win1_3.index t (0 : Fin 3) ∧ win1_0.index t (1 : Fin 3) = win1_3.index t (1 : Fin 3) ∧ win1_0.index t (2 : Fin 3) = 0
    ∧ win1_3.index t (0 : Fin 3) ≤ 3 ∧ win1_3.index t (1 : Fin 3) ≤ 3 ∧ win1_3.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0 :=
  (by decide +kernel : ∀ t : Fin grid1.N, _)

/-- Every block of the output is some point's. -/
theorem idx_onto : ∀ (q0 : Fin 4) (q1 : Fin 4), ∃ t : Fin cfg1.N, win1_3.index t = ![q0.val, q1.val, 0] :=
  (by decide +kernel : ∀ (q0 : Fin 4) (q1 : Fin 4), ∃ t : Fin grid1.N, win1_3.index t = ![q0.val, q1.val, 0])

/-- An index of the array is in point `t`'s block iff each coordinate is in the block's range on its axis. -/
theorem mem_blk (t : Fin cfg1.N) (i : S4x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v4).slice (win1_3.rect t)).set ↔ _
  rw [View.set_slice_whole, Rect.mem_set_unit]
  exact Iff.rfl

/-- What point `t` writes back is block `t` of the attention of the arrays as the region finds them. -/
theorem flushed_eq (c : Dev nD) (t : Fin cfg1.N) :
    (dat1 V c).flushed 3 t = ((cfg1.win 3).blk t).view.read (Elt Ideal) (attnArr (V c main_v3_0) (V c main_v3_1) (V c main_v3_2)) := by
  show (cfg1.win 3).cut (grid1.coords t) ((dat1 V c).after 3 t) = _
  rw [after1_3]
  unfold out1_3
  rw [View.canon_unit_zero hz3]
  simp only [View.ld_unit_zero (S := S1x512x1024) hz3, View.ld_unit_zero (S := S1x2048x1024) hz3]
  obtain ⟨e00, e01, e02, e30, e31, e32, e10, e11, e12, e20, e21, e22⟩ := idx_facts t
  funext j
  obtain ⟨u, r, e, rfl⟩ : ∃ (u : Fin 1) (r : Fin 512) (e : Fin 1024), j = ix3 u r e := ⟨j 0, j 1, j 2, eq_ix3 j⟩
  show k1_pay1 (iblk1 V c 0 t) (iblk1 V c 1 t) (iblk1 V c 2 t) (ix3 u r e)
      = attnArr (V c main_v3_0) (V c main_v3_1) (V c main_v3_2) (((cfg1.win 3).blk t).view.emb (ix3 u r e))
  refine (AttnBody.pay1_apply (iblk1 V c 0 t) (iblk1 V c 1 t) (iblk1 V c 2 t) u r e).trans ?_
  unfold attnArr
  have hu : u.val = 0 := by omega
  have hr : r.val < 512 := r.isLt
  refine congrArg₂ fusedRow
    (funext fun k => congrArg (· * scaleW) (Finset.sum_congr rfl fun d _ => congrArg₂ (· * ·) ?_ ?_))
    (funext fun k => ?_)
  · show V c main_v3_0 (((cfg1.win 0).blk t).view.emb (ix3 (0 : Fin 1) r d)) = V c main_v3_0 _
    refine congrArg (V c main_v3_0) (funext fun a => Fin.ext ?_)
    match a with
    | ⟨0, _⟩ => show win1_0.index t (0 : Fin 3) * 1 + 1 * 0 = win1_3.index t (0 : Fin 3) * 1 + 1 * u.val; omega
    | ⟨1, _⟩ => show win1_0.index t (1 : Fin 3) * 512 + 1 * r.val = win1_3.index t (1 : Fin 3) * 512 + 1 * r.val; omega
    | ⟨2, _⟩ => show win1_0.index t (2 : Fin 3) * 1024 + 1 * d.val = d.val; omega
  · show V c main_v3_1 (((cfg1.win 1).blk t).view.emb (ix3 (0 : Fin 1) k d)) = V c main_v3_1 _
    refine congrArg (V c main_v3_1) (funext fun a => Fin.ext ?_)
    match a with
    | ⟨0, _⟩ => show win1_1.index t (0 : Fin 3) * 1 + 1 * 0 = win1_3.index t (0 : Fin 3) * 1 + 1 * u.val; omega
    | ⟨1, _⟩ => show win1_1.index t (1 : Fin 3) * 2048 + 1 * k.val = k.val; omega
    | ⟨2, _⟩ => show win1_1.index t (2 : Fin 3) * 1024 + 1 * d.val = d.val; omega
  · show V c main_v3_2 (((cfg1.win 2).blk t).view.emb (ix3 (0 : Fin 1) k e)) = V c main_v3_2 _
    refine congrArg (V c main_v3_2) (funext fun a => Fin.ext ?_)
    match a with
    | ⟨0, _⟩ => show win1_2.index t (0 : Fin 3) * 1 + 1 * 0 = win1_3.index t (0 : Fin 3) * 1 + 1 * u.val; omega
    | ⟨1, _⟩ => show win1_2.index t (1 : Fin 3) * 2048 + 1 * k.val = k.val; omega
    | ⟨2, _⟩ => show win1_2.index t (2 : Fin 3) * 1024 + 1 * e.val = win1_3.index t (2 : Fin 3) * 1024 + 1 * e.val; omega

/-- Every index of the array is in some point's block: the point of its batch and of its row's group of 512. -/
theorem cover (i : S4x2048x1024.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- The output array after the region: the attention of the region's entry contents. -/
theorem final (c : Dev nD) :
    (dat1 V c).arrAt 3 cfg1.N = attnArr (V c main_v3_0) (V c main_v3_1) (V c main_v3_2) :=
  (dat1 V c).arrAt_eq_of_cover 3 (attnArr (V c main_v3_0) (V c main_v3_1) (V c main_v3_2))
    (fun t _ => flushed_eq V c t) cover

end Cert.KernelIdeal.AttnValue

end
-- ==== Proof.KValue.lean ====
/-
  The idealized program's result as one function of its arguments. The last boundary's contents at the result's
  buffer are what the attention region's write-backs leave: the attention of the three arrays that region is entered
  with. Those are what the projection region's write-backs leave: the three affine projections of the arrays THAT region
  is entered with, which are the activations and biases as launched and the three weight matrices after the host's
  change of float format — the identity on extended reals. Composed, index by index, the result is the attention of the
  three projections of the launch arrays, the weighted sum divided once by the sum of the weights.
-/
import proofs.«113369_j47820165874215_2_alg».proof.Proof.Gen.KernelIdeal.Frame
import proofs.«113369_j47820165874215_2_alg».proof.Proof.ProjValue
import proofs.«113369_j47820165874215_2_alg».proof.Proof.AttnValue
import proofs.«113369_j47820165874215_2_alg».proof.Proof.Spec
import Idealize.ShloMosaic.Lib.StableHlo.Run

set_option maxRecDepth 16384

noncomputable section

open scoped BigOperators

namespace Cert.KernelIdeal.AttnResult

open Cert.KernelIdeal Cert.KernelIdeal.Gen Idealize.ShloMosaic Idealize.ShloMosaic.TcCoe Idealize.ShloMosaic.ValueIdx
open Idealize.ShloMosaic.StableHlo
open Idealize.SL.Sem

variable (m : (ℓ : Loc nD τ sig) → Buf (Elt Ideal) ℓ) (ρ : Dev nD → PrngReg)

/-! ## The projection region's entry contents: the host stretch applied to the launch memory -/

theorem V1_arg0 (c : Dev nD) : (V1 m ρ c main_arg0 : S4x2048x1024.Idx → EReal) = m ((c : Thread nD τ).loc main_arg0) := by
  dsimp only [V1, W1, W0, hostOps0]; after_results
theorem V1_arg2 (c : Dev nD) : (V1 m ρ c main_arg2 : S1024.Idx → EReal) = m ((c : Thread nD τ).loc main_arg2) := by
  dsimp only [V1, W1, W0, hostOps0]; after_results
theorem V1_arg4 (c : Dev nD) : (V1 m ρ c main_arg4 : S1024.Idx → EReal) = m ((c : Thread nD τ).loc main_arg4) := by
  dsimp only [V1, W1, W0, hostOps0]; after_results
theorem V1_arg6 (c : Dev nD) : (V1 m ρ c main_arg6 : S1024.Idx → EReal) = m ((c : Thread nD τ).loc main_arg6) := by
  dsimp only [V1, W1, W0, hostOps0]; after_results
/-- A converted weight matrix holds the launch matrix's numbers. -/
theorem V1_v0 (c : Dev nD) : (V1 m ρ c main_v0 : S1024x1024.Idx → EReal) = m ((c : Thread nD τ).loc main_arg1) := by
  dsimp only [V1, W1, W0, hostOps0]; after_results; rfl
theorem V1_v1 (c : Dev nD) : (V1 m ρ c main_v1 : S1024x1024.Idx → EReal) = m ((c : Thread nD τ).loc main_arg3) := by
  dsimp only [V1, W1, W0, hostOps0]; after_results; rfl
theorem V1_v2 (c : Dev nD) : (V1 m ρ c main_v2 : S1024x1024.Idx → EReal) = m ((c : Thread nD τ).loc main_arg5) := by
  dsimp only [V1, W1, W0, hostOps0]; after_results; rfl

/-! ## The attention region's entry contents: the projections -/

theorem V2_q (c : Dev nD) : (V2 m ρ c main_v3_0 : S4x2048x1024.Idx → EReal)
    = ProjValue.projArr (m ((c : Thread nD τ).loc main_arg0)) (m ((c : Thread nD τ).loc main_arg1)) (m ((c : Thread nD τ).loc main_arg2)) := by
  refine (W2_arr m ρ c 7).trans ?_
  rw [ProjValue.final7 (V1 m ρ) c, V1_arg0, V1_v0, V1_arg2]
theorem V2_k (c : Dev nD) : (V2 m ρ c main_v3_1 : S4x2048x1024.Idx → EReal)
    = ProjValue.projArr (m ((c : Thread nD τ).loc main_arg0)) (m ((c : Thread nD τ).loc main_arg3)) (m ((c : Thread nD τ).loc main_arg4)) := by
  refine (W2_arr m ρ c 8).trans ?_
  rw [ProjValue.final8 (V1 m ρ) c, V1_arg0, V1_v1, V1_arg4]
theorem V2_v (c : Dev nD) : (V2 m ρ c main_v3_2 : S4x2048x1024.Idx → EReal)
    = ProjValue.projArr (m ((c : Thread nD τ).loc main_arg0)) (m ((c : Thread nD τ).loc main_arg5)) (m ((c : Thread nD τ).loc main_arg6)) := by
  refine (W2_arr m ρ c 9).trans ?_
  rw [ProjValue.final9 (V1 m ρ) c, V1_arg0, V1_v2, V1_arg6]

/-! ## The result -/

/-- The result array at the last boundary: self-attention of the launch arrays. -/
theorem result (c : Dev nD) : (W3 m ρ c (Proc.devRef .tc main_v4) : S4x2048x1024.Idx → EReal)
    = Cert.Attention.fused (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (W3_arr m ρ c 3).trans ?_
  rw [AttnValue.final (V2 m ρ) c, V2_q, V2_k, V2_v]
  rfl

end Cert.KernelIdeal.AttnResult

end
-- ==== Proof.RefValue.lean ====
/-
  The reference program's result, index by index, is the softmax-first arrangement of single-head self-attention.

  The reference computes three affine projections (a contraction over the width plus a broadcast bias), the scale
  1 / √1024 as a quotient of two words, the scaled inner products of query and key rows, each row's maximum from −∞
  (taken once more against −∞), the exponentials of the centred scores, their sum from the zero word, the quotient
  of each exponential by that sum, and the contraction of the quotients with the value rows. Each generated reading
  lemma states one operation's element in terms of its operands' elements at composed indices; here the composed
  indices are identified with coordinate triples and pairs, the one fold the generated readings leave (the row
  maximum) is read as a fold of max over the last coordinate, and the readings are chained from the projections up to
  the result. No float word is evaluated: −∞, 0, 1 and 1024 stay the patterns they are printed as.
-/
import proofs.«113369_j47820165874215_2_alg».proof.Proof.Gen.ReferenceIdeal.Read
import proofs.«113369_j47820165874215_2_alg».proof.Proof.Spec
import Idealize.ShloMosaic.Lib.ValueIdx
import Idealize.ShloMosaic.Lib.Pipeline.Value
import Idealize.ShloMosaic.PureOps.Ideal.Laws

noncomputable section

open scoped BigOperators

namespace Cert.Attention.RefValue

open Cert.ReferenceIdeal Cert.ReferenceIdeal.Gen Cert.ReferenceIdeal.Read Idealize.ShloMosaic Idealize.ShloMosaic.ValueIdx
open Cert.Attention

/-- Activations, a projection's weights and a projection's bias, as the reference's arguments are typed. -/
abbrev TX : Type := (⟨S4x2048x1024, .f32⟩ : BufTy).Contents (Elt Ideal)
abbrev TW : Type := (⟨S1024x1024, .f32⟩ : BufTy).Contents (Elt Ideal)
abbrev TB : Type := (⟨S1024, .f32⟩ : BufTy).Contents (Elt Ideal)

/-! ## The composed indices are coordinate tuples -/

/-- A projection's left operand is read at (batch, token, d). -/
theorem lidx_v0 (b : Fin 4) (s : Fin 2048) (e d : Fin 1024) : lidx_main_v0 (ix3 b s e) d = ix3 b s d :=
  funext fun a => by match a with | ⟨0, _⟩ => rfl | ⟨1, _⟩ => rfl | ⟨2, _⟩ => rfl
/-- A projection's weights are read at (d, e). -/
theorem ridx_v0 (b : Fin 4) (s : Fin 2048) (e d : Fin 1024) : ridx_main_v0 (ix3 b s e) d = ix2 d e :=
  funext fun a => by match a with | ⟨0, _⟩ => rfl | ⟨1, _⟩ => rfl
/-- The twice-broadcast bias is read at e. -/
theorem bidx_v2 (b : Fin 4) (s : Fin 2048) (e : Fin 1024) : idx_main_v1 (idx_main_v2 (ix3 b s e)) = ix1 e :=
  funext fun a => by match a with | ⟨0, _⟩ => rfl

/-- The same three readings for the key projection. -/
theorem lidx_v4 (b : Fin 4) (s : Fin 2048) (e d : Fin 1024) : lidx_main_v4 (ix3 b s e) d = ix3 b s d :=
  funext fun a => by match a with | ⟨0, _⟩ => rfl | ⟨1, _⟩ => rfl | ⟨2, _⟩ => rfl
theorem ridx_v4 (b : Fin 4) (s : Fin 2048) (e d : Fin 1024) : ridx_main_v4 (ix3 b s e) d = ix2 d e :=
  funext fun a => by match a with | ⟨0, _⟩ => rfl | ⟨1, _⟩ => rfl
theorem bidx_v6 (b : Fin 4) (s : Fin 2048) (e : Fin 1024) : idx_main_v5 (idx_main_v6 (ix3 b s e)) = ix1 e :=
  funext fun a => by match a with | ⟨0, _⟩ => rfl
/-- The same three readings for the value projection. -/
theorem lidx_v8 (b : Fin 4) (s : Fin 2048) (e d : Fin 1024) : lidx_main_v8 (ix3 b s e) d = ix3 b s d :=
  funext fun a => by match a with | ⟨0, _⟩ => rfl | ⟨1, _⟩ => rfl | ⟨2, _⟩ => rfl
theorem ridx_v8 (b : Fin 4) (s : Fin 2048) (e d : Fin 1024) : ridx_main_v8 (ix3 b s e) d = ix2 d e :=
  funext fun a => by match a with | ⟨0, _⟩ => rfl | ⟨1, _⟩ => rfl
theorem bidx_v10 (b : Fin 4) (s : Fin 2048) (e : Fin 1024) : idx_main_v9 (idx_main_v10 (ix3 b s e)) = ix1 e :=
  funext fun a => by match a with | ⟨0, _⟩ => rfl
/-- A score's query row is read at (batch, q, d), its key row at (batch, k, d). -/
theorem lidx_v14 (b : Fin 4) (q k : Fin 2048) (d : Fin 1024) : lidx_main_v14 (ix3 b q k) d = ix3 b q d :=
  funext fun a => by match a with | ⟨0, _⟩ => rfl | ⟨1, _⟩ => rfl | ⟨2, _⟩ => rfl
theorem ridx_v14 (b : Fin 4) (q k : Fin 2048) (d : Fin 1024) : ridx_main_v14 (ix3 b q k) d = ix3 b k d :=
  funext fun a => by match a with | ⟨0, _⟩ => rfl | ⟨1, _⟩ => rfl | ⟨2, _⟩ => rfl
/-- A row's statistic, broadcast back along the row, is read at (batch, q). -/
theorem bidx_v21 (b : Fin 4) (q k : Fin 2048) : idx_main_v20 (idx_main_v21 (ix3 b q k)) = ix2 b q :=
  funext fun a => by match a with | ⟨0, _⟩ => rfl | ⟨1, _⟩ => rfl
theorem bidx_v26 (b : Fin 4) (q k : Fin 2048) : idx_main_v25 (idx_main_v26 (ix3 b q k)) = ix2 b q :=
  funext fun a => by match a with | ⟨0, _⟩ => rfl | ⟨1, _⟩ => rfl
/-- The row sum reads the exponentials at (batch, q, k). -/
theorem ridx_v24 (b : Fin 4) (q k : Fin 2048) : idx_main_v24 (ix2 b q) k = ix3 b q k :=
  funext fun a => by match a with | ⟨0, _⟩ => rfl | ⟨1, _⟩ => rfl | ⟨2, _⟩ => rfl
/-- The result's weights are read at (batch, q, k), its value rows at (batch, k, e). -/
theorem lidx_v28 (b : Fin 4) (q : Fin 2048) (e : Fin 1024) (k : Fin 2048) : lidx_main_v28 (ix3 b q e) k = ix3 b q k :=
  funext fun a => by match a with | ⟨0, _⟩ => rfl | ⟨1, _⟩ => rfl | ⟨2, _⟩ => rfl
theorem ridx_v28 (b : Fin 4) (q : Fin 2048) (e : Fin 1024) (k : Fin 2048) : ridx_main_v28 (ix3 b q e) k = ix3 b k e :=
  funext fun a => by match a with | ⟨0, _⟩ => rfl | ⟨1, _⟩ => rfl | ⟨2, _⟩ => rfl

/-! ## The projections -/

theorem proj_v3 (x0 : TX) (x1 : TW) (x2 : TB) (b : Fin 4) (s : Fin 2048) (e : Fin 1024) :
    val_main_v3 (F := Ideal) x0 x1 x2 (ix3 b s e) = proj x0 x1 x2 b s e := by
  rw [val_main_v3_apply, val_main_v0_apply, val_main_v2_apply, val_main_v1_apply, bidx_v2]
  simp only [lidx_v0, ridx_v0]
  rfl

theorem proj_v7 (x0 : TX) (x3 : TW) (x4 : TB) (b : Fin 4) (s : Fin 2048) (e : Fin 1024) :
    val_main_v7 (F := Ideal) x0 x3 x4 (ix3 b s e) = proj x0 x3 x4 b s e := by
  rw [val_main_v7_apply, val_main_v4_apply, val_main_v6_apply, val_main_v5_apply, bidx_v6]
  simp only [lidx_v4, ridx_v4]
  rfl

theorem proj_v11 (x0 : TX) (x5 : TW) (x6 : TB) (b : Fin 4) (s : Fin 2048) (e : Fin 1024) :
    val_main_v11 (F := Ideal) x0 x5 x6 (ix3 b s e) = proj x0 x5 x6 b s e := by
  rw [val_main_v11_apply, val_main_v8_apply, val_main_v10_apply, val_main_v9_apply, bidx_v10]
  simp only [lidx_v8, ridx_v8]
  rfl

/-! ## The scale -/

/-- The scale is the quotient of the word of 1 by the square root of the word of 1024. -/
theorem scale_v13 (j : S_.Idx) : val_main_v13 (F := Ideal) j = scaleQ := by
  rw [val_main_v13_apply, val_main_v12_apply, val_main_cst_0_apply, val_main_cst_apply]
  rfl

/-! ## The scores -/

theorem score_v16 (x0 : TX) (x1 : TW) (x2 : TB) (x3 : TW) (x4 : TB) (b : Fin 4) (q k : Fin 2048) :
    val_main_v16 (F := Ideal) x0 x1 x2 x3 x4 (ix3 b q k) = score scaleQ (proj x0 x1 x2) (proj x0 x3 x4) b q k := by
  rw [val_main_v16_apply, val_main_v14_apply, val_main_v15_apply, scale_v13]
  simp only [lidx_v14, ridx_v14, proj_v3, proj_v7]
  rfl

/-! ## The row maximum -/

/-- The reduced index (batch, q) with the coordinate `k` put back on the last axis is (batch, q, k). -/
theorem lift_v17 (h : S4x2048x2048.Reduces [2] S4x2048) (b : Fin 4) (q : Fin 2048) (k : Fin (S4x2048x2048.size 2)) :
    h.lift (ix2 b q) k = ix3 b q (⟨k.val, k.isLt⟩ : Fin 2048) := by
  funext c; apply Fin.ext
  match c with | ⟨0, _⟩ => rfl | ⟨1, _⟩ => rfl | ⟨2, _⟩ => rfl

/-- The fold the generated readings leave: a row's maximum is the fold of max, from the word of −∞, over the row's
    scores. -/
theorem rowmax_v17 (x0 : TX) (x1 : TW) (x2 : TB) (x3 : TW) (x4 : TB) (b : Fin 4) (q : Fin 2048) :
    val_main_v17 (F := Ideal) x0 x1 x2 x3 x4 (ix2 b q) = rowMax fun k => score scaleQ (proj x0 x1 x2) (proj x0 x3 x4) b q k := by
  have h : S4x2048x2048.Reduces [2] S4x2048 := by decide
  unfold val_main_v17
  rw [Host.reduce_eq_fold_single (FloatOps.maximumf (F := Ideal) (φ := .f32)) _ _ _ h, val_main_cst_1_apply]
  have hf : (val_main_v16 (F := Ideal) x0 x1 x2 x3 x4 ∘ h.lift (ix2 b q)) = fun k : Fin 2048 => score scaleQ (proj x0 x1 x2) (proj x0 x3 x4) b q k :=
    funext fun k => by rw [Function.comp_apply, lift_v17 h b q k, score_v16]; rfl
  exact congrArg (fun f => Finset.fold max negInf f (Finset.univ : Finset (Fin 2048))) hf

/-- … taken once more against −∞. -/
theorem max_v19 (x0 : TX) (x1 : TW) (x2 : TB) (x3 : TW) (x4 : TB) (b : Fin 4) (q : Fin 2048) :
    val_main_v19 (F := Ideal) x0 x1 x2 x3 x4 (ix2 b q) = max negInf (rowMax fun k' => score scaleQ (proj x0 x1 x2) (proj x0 x3 x4) b q k') := by
  rw [val_main_v19_apply, val_main_v18_apply, val_main_cst_2_apply, rowmax_v17]
  rfl

/-! ## The softmax -/

/-- The exponential of a centred score. -/
theorem exp_v23 (x0 : TX) (x1 : TW) (x2 : TB) (x3 : TW) (x4 : TB) (b : Fin 4) (q k : Fin 2048) :
    val_main_v23 (F := Ideal) x0 x1 x2 x3 x4 (ix3 b q k) = Ideal.exp (score scaleQ (proj x0 x1 x2) (proj x0 x3 x4) b q k - max negInf (rowMax fun k' => score scaleQ (proj x0 x1 x2) (proj x0 x3 x4) b q k')) := by
  rw [val_main_v23_apply, val_main_v22_apply, val_main_v21_apply, val_main_v20_apply, bidx_v21, max_v19, score_v16]
  rfl

/-- The sum of a row's exponentials, from the zero word. -/
theorem sum_v24 (x0 : TX) (x1 : TW) (x2 : TB) (x3 : TW) (x4 : TB) (b : Fin 4) (q : Fin 2048) :
    val_main_v24 (F := Ideal) x0 x1 x2 x3 x4 (ix2 b q) = zeroW + ∑ k : Fin 2048, Ideal.exp (score scaleQ (proj x0 x1 x2) (proj x0 x3 x4) b q k - max negInf (rowMax fun k' => score scaleQ (proj x0 x1 x2) (proj x0 x3 x4) b q k')) := by
  rw [val_main_v24_apply, val_main_cst_3_apply]
  simp only [ridx_v24, exp_v23]
  rfl

/-- A weight: the exponential divided by the row's sum. -/
theorem soft_v27 (x0 : TX) (x1 : TW) (x2 : TB) (x3 : TW) (x4 : TB) (b : Fin 4) (q k : Fin 2048) :
    val_main_v27 (F := Ideal) x0 x1 x2 x3 x4 (ix3 b q k)
      = Ideal.div (Ideal.exp (score scaleQ (proj x0 x1 x2) (proj x0 x3 x4) b q k - max negInf (rowMax fun k' => score scaleQ (proj x0 x1 x2) (proj x0 x3 x4) b q k'))) (zeroW + ∑ k'' : Fin 2048, Ideal.exp (score scaleQ (proj x0 x1 x2) (proj x0 x3 x4) b q k'' - max negInf (rowMax fun k' => score scaleQ (proj x0 x1 x2) (proj x0 x3 x4) b q k'))) := by
  rw [val_main_v27_apply, val_main_v26_apply, val_main_v25_apply, bidx_v26, exp_v23, sum_v24]
  rfl

/-! ## The result -/

/-- At (batch, q, e) the reference's result is the softmax-first row formula of the scores of q and column e of the
    value projection. -/
theorem result_apply (x0 : TX) (x1 : TW) (x2 : TB) (x3 : TW) (x4 : TB) (x5 : TW) (x6 : TB) (b : Fin 4) (q : Fin 2048) (e : Fin 1024) :
    val_main_v28 (F := Ideal) x0 x1 x2 x3 x4 x5 x6 (ix3 b q e)
      = softmaxRow (fun k => score scaleQ (proj x0 x1 x2) (proj x0 x3 x4) b q k) (fun k => proj x0 x5 x6 b k e) := by
  rw [val_main_v28_apply]
  simp only [lidx_v28, ridx_v28, soft_v27, proj_v11]
  rfl

/-- The reference's result is `softmaxThen` of its seven arguments. -/
theorem result_eq (x0 : (⟨Cert.ReferenceIdeal.S4x2048x1024, .f32⟩ : BufTy).Contents (Elt Ideal))
    (x1 : (⟨Cert.ReferenceIdeal.S1024x1024, .f32⟩ : BufTy).Contents (Elt Ideal))
    (x2 : (⟨Cert.ReferenceIdeal.S1024, .f32⟩ : BufTy).Contents (Elt Ideal))
    (x3 : (⟨Cert.ReferenceIdeal.S1024x1024, .f32⟩ : BufTy).Contents (Elt Ideal))
    (x4 : (⟨Cert.ReferenceIdeal.S1024, .f32⟩ : BufTy).Contents (Elt Ideal))
    (x5 : (⟨Cert.ReferenceIdeal.S1024x1024, .f32⟩ : BufTy).Contents (Elt Ideal))
    (x6 : (⟨Cert.ReferenceIdeal.S1024, .f32⟩ : BufTy).Contents (Elt Ideal)) :
    Cert.ReferenceIdeal.Read.val_main_v28 (F := Ideal) x0 x1 x2 x3 x4 x5 x6 = Cert.Attention.softmaxThen x0 x1 x2 x3 x4 x5 x6 := by
  funext i
  obtain ⟨b, q, e, rfl⟩ : ∃ (b : Fin 4) (q : Fin 2048) (e : Fin 1024), i = ix3 b q e := ⟨i 0, i 1, i 2, eq_ix3 i⟩
  exact result_apply x0 x1 x2 x3 x4 x5 x6 b q e

end Cert.Attention.RefValue

end
-- ==== Proof.LibRealValued.lean ====
/-
  Real-valued extended reals. A quantity is real-valued when it is the image of a real number, that is,
  neither of the two infinities. The arithmetic of the extended reals restricted to real-valued
  quantities is the arithmetic of the real numbers, and the exponential and the division by a nonzero
  real keep a real-valued argument real-valued.
-/
import Mathlib
import Idealize.ShloMosaic.PureOps.Ideal
import Idealize.ShloMosaic.PureOps.Ideal.Laws

namespace Cert.RealValued

open Idealize.ShloMosaic

/-- An extended real is real-valued when it is (the image of) a real number. -/
def IsReal (x : EReal) : Prop := ∃ r : ℝ, x = (r : EReal)

/-- The image of a real number is real-valued. -/
theorem IsReal.coe (r : ℝ) : IsReal (r : EReal) := ⟨r, rfl⟩

/-- Zero is real-valued. -/
theorem IsReal.zero : IsReal (0 : EReal) := ⟨0, EReal.coe_zero.symm⟩

/-- One is real-valued. -/
theorem IsReal.one : IsReal (1 : EReal) := ⟨1, EReal.coe_one.symm⟩

/-- A real-valued quantity is neither infinity. -/
theorem IsReal.ne_top {x : EReal} (hx : IsReal x) : x ≠ ⊤ := by
  obtain ⟨a, rfl⟩ := hx; exact EReal.coe_ne_top a

/-- A real-valued quantity is neither infinity. -/
theorem IsReal.ne_bot {x : EReal} (hx : IsReal x) : x ≠ ⊥ := by
  obtain ⟨a, rfl⟩ := hx; exact EReal.coe_ne_bot a

/-- The sum of two real-valued quantities is real-valued. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real-valued quantities is real-valued. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real-valued quantities is real-valued. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real-valued quantity is real-valued. -/
theorem IsReal.neg {x : EReal} (hx : IsReal x) : IsReal (-x) := by
  obtain ⟨a, rfl⟩ := hx
  exact ⟨-a, (EReal.coe_neg a).symm⟩

/-- The maximum of two real numbers, taken in the extended reals, is the image of their maximum. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The maximum of two real-valued quantities is real-valued. -/
theorem IsReal.max {x y : EReal} (hx : IsReal x) (hy : IsReal y) : IsReal (max x y) := by
  obtain ⟨a, rfl⟩ := hx; obtain ⟨b, rfl⟩ := hy
  exact ⟨Max.max a b, coe_max a b⟩

/-- A finite sum of real-valued quantities is real-valued. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add
      (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The exponential of a real-valued quantity is a positive real number. -/
theorem exp_coe_pos (r : ℝ) : ∃ e : ℝ, 0 < e ∧ Ideal.exp (r : EReal) = (e : EReal) :=
  ⟨Real.exp r, Real.exp_pos r, Ideal.exp_coe r⟩

/-- The exponential of a real-valued quantity is real-valued. -/
theorem isReal_exp {x : EReal} (h : IsReal x) : IsReal (Ideal.exp x) := by
  obtain ⟨a, rfl⟩ := h
  exact ⟨Real.exp a, Ideal.exp_coe a⟩

/-- A real-valued quantity divided by a nonzero real number is real-valued. -/
theorem isReal_div_coe {x : EReal} (h : IsReal x) {y : ℝ} (hy : y ≠ 0) :
    IsReal (Ideal.div x (y : EReal)) := by
  rw [Ideal.div_coe hy x]
  exact h.mul (IsReal.coe _)

end Cert.RealValued
-- ==== Proof.RealLaw.lean ====
/-
  On real data the two arrangements of self-attention agree.

  The words: the pattern of −∞ denotes ⊥, the patterns of 0, 1, 1024 and 2⁻⁵ denote those real numbers; hence the
  quotient 1 / √1024 is the real 1/32, the same scale as the dyadic word.

  A projection of real data is real, and so is a scaled inner product of real rows with a real scale. The maximum
  of a row of real scores, taken from −∞, is real: it is at least the first score, so it is not −∞, and a maximum
  of reals from −∞ is −∞ or real. Taking the maximum once more against −∞ changes nothing.

  With a real maximum every weight exp (S k − M) is a positive real, and the sum L of the 2048 weights is a positive
  real, so dividing by L is multiplying by the real 1/L. In the reals
  ∑ k, (e k · (1/L)) · v k = (∑ k, e k · v k) · (1/L), which is the agreement of the two rows. Distributivity fails
  on the extended reals at the infinities, so that step is done on real witnesses.
-/
import proofs.«113369_j47820165874215_2_alg».proof.Proof.Spec
import proofs.«113369_j47820165874215_2_alg».proof.Proof.LibRealValued

noncomputable section

open scoped BigOperators

namespace Cert.Attention.RealLaw

open Idealize.ShloMosaic Idealize.ShloMosaic.ValueIdx Cert.RealValued Cert.Attention

/-! ### The words -/

/-- The pattern of −∞ denotes the bottom of the extended reals. -/
theorem negInf_eq : negInf = ⊥ := by
  simp [Ideal.ofBits, Ideal.ieee]

/-- The pattern of 0 denotes 0. -/
theorem zeroW_eq : zeroW = 0 := by
  simp [Ideal.ofBits, Ideal.ieee]

/-- The pattern of 1 denotes 1. -/
theorem oneW_eq : oneW = ((1 : ℝ) : EReal) := by
  simp [Ideal.ofBits, Ideal.ieee, -EReal.coe_mul]; norm_num

/-- The pattern of 1024 denotes the real 1024. -/
theorem dW_eq : dW = ((1024 : ℝ) : EReal) := by
  simp [Ideal.ofBits, Ideal.ieee, -EReal.coe_mul]; norm_num

/-- The pattern of 2⁻⁵ denotes the real 1/32. -/
theorem scaleW_eq : scaleW = ((1 / 32 : ℝ) : EReal) := by
  simp [Ideal.ofBits, Ideal.ieee, -EReal.coe_mul]; norm_num

/-- The quotient 1 / √1024 is the same scale as the dyadic word: √1024 = 32 and 1 / 32 = 1 · (1/32). -/
theorem scaleQ_eq : scaleQ = scaleW := by
  have h32 : Real.sqrt 1024 = 32 := by
    rw [show (1024 : ℝ) = 32 ^ 2 by norm_num]
    exact Real.sqrt_sq (by norm_num)
  have hne : (32 : ℝ) ≠ 0 := by norm_num
  show Ideal.div oneW (Ideal.sqrt dW) = scaleW
  rw [oneW_eq, dW_eq, scaleW_eq, Ideal.sqrt_coe, if_neg (by norm_num), h32, Ideal.div_coe hne,
    EReal.coe_one, one_mul]

/-- The dyadic scale is real. -/
theorem scaleW_real : IsReal scaleW := by
  rw [scaleW_eq]; exact IsReal.coe _

/-! ### Projections and scores of real data -/

/-- A projection of real data is real. -/
theorem proj_real (x : SX.Idx → EReal) (w : SW.Idx → EReal) (b : SB.Idx → EReal)
    (hx : ∀ i, IsReal (x i)) (hw : ∀ i, IsReal (w i)) (hb : ∀ i, IsReal (b i))
    (bt : Fin 4) (s : Fin 2048) (e : Fin 1024) : IsReal (proj x w b bt s e) := by
  unfold proj
  exact (IsReal.sum _ _ fun d _ => (hx _).mul (hw _)).add (hb _)

/-- A score of real rows with a real scale is real. -/
theorem score_real (c : EReal) (Q K : Fin 4 → Fin 2048 → Fin 1024 → EReal) (hc : IsReal c)
    (hQ : ∀ bt s e, IsReal (Q bt s e)) (hK : ∀ bt s e, IsReal (K bt s e))
    (bt : Fin 4) (q k : Fin 2048) : IsReal (score c Q K bt q k) := by
  unfold score
  exact (IsReal.sum _ _ fun d _ => (hQ _ _ _).mul (hK _ _ _)).mul hc

/-! ### The row maximum -/

/-- A maximum of reals taken from −∞ is −∞ or real. -/
theorem fold_max_bot_or_real {ι : Type*} (s : Finset ι) (f : ι → EReal) (h : ∀ i ∈ s, IsReal (f i)) :
    s.fold max ⊥ f = ⊥ ∨ IsReal (s.fold max ⊥ f) := by
  classical
  induction s using Finset.induction_on with
  | empty => left; simp
  | insert a s ha ih =>
    rw [Finset.fold_insert ha]
    right
    rcases ih (fun i hi => h i (Finset.mem_insert_of_mem hi)) with h0 | h1
    · rw [h0, max_eq_left bot_le]; exact h a (Finset.mem_insert_self a s)
    · exact (h a (Finset.mem_insert_self a s)).max h1

/-- The maximum of a row of real scores is real. -/
theorem rowMax_real (S : Fin 2048 → EReal) (hS : ∀ k, IsReal (S k)) : IsReal (rowMax S) := by
  unfold rowMax
  rw [negInf_eq]
  rcases fold_max_bot_or_real Finset.univ S (fun k _ => hS k) with h0 | h1
  · exfalso
    have hle : S 0 ≤ (Finset.univ : Finset (Fin 2048)).fold max ⊥ S :=
      (Finset.le_fold_max (S 0)).2 (Or.inr ⟨0, Finset.mem_univ _, le_rfl⟩)
    rw [h0] at hle
    exact (hS 0).ne_bot (le_bot_iff.1 hle)
  · exact h1

/-- Taking the maximum once more against −∞ changes nothing. -/
theorem max_negInf (y : EReal) : max negInf y = y := by
  rw [negInf_eq]; exact max_eq_right bot_le

/-! ### One row -/

/-- In the reals: weights divided first, or the weighted sum divided once. -/
theorem real_row (e v : Fin 2048 → ℝ) (c : ℝ) :
    (∑ k : Fin 2048, e k * c * v k) = (∑ k : Fin 2048, e k * v k) * c := by
  rw [Finset.sum_mul]
  exact Finset.sum_congr rfl fun k _ => by ring

/-- On a row of real scores and real values the two arrangements agree. -/
theorem softmaxRow_eq_fusedRow (S V : Fin 2048 → EReal) (hS : ∀ k, IsReal (S k)) (hV : ∀ k, IsReal (V k)) :
    softmaxRow S V = fusedRow S V := by
  obtain ⟨M, hM⟩ := rowMax_real S hS
  choose s hs using hS
  choose v hv using hV
  have hE : ∀ k, Ideal.exp (S k - rowMax S) = ((Real.exp (s k - M) : ℝ) : EReal) := by
    intro k
    rw [hs k, hM, ← EReal.coe_sub]
    exact Ideal.exp_coe _
  have hLpos : 0 < ∑ k : Fin 2048, Real.exp (s k - M) :=
    Finset.sum_pos (fun k _ => Real.exp_pos _) ⟨0, Finset.mem_univ _⟩
  have hL : (∑ k : Fin 2048, Ideal.exp (S k - rowMax S))
      = ((∑ k : Fin 2048, Real.exp (s k - M) : ℝ) : EReal) := by
    rw [coe_sum]
    exact Finset.sum_congr rfl fun k _ => hE k
  unfold softmaxRow fusedRow
  rw [max_negInf, zeroW_eq, zero_add, hL]
  have hl : ∀ k, Ideal.div (Ideal.exp (S k - rowMax S)) ((∑ k : Fin 2048, Real.exp (s k - M) : ℝ) : EReal) * V k
      = ((Real.exp (s k - M) * (1 / ∑ k : Fin 2048, Real.exp (s k - M)) * v k : ℝ) : EReal) := by
    intro k
    rw [Ideal.div_coe (ne_of_gt hLpos), hE k, hv k, ← EReal.coe_mul, ← EReal.coe_mul]
  have hr : (∑ k : Fin 2048, Ideal.exp (S k - rowMax S) * V k)
      = ((∑ k : Fin 2048, Real.exp (s k - M) * v k : ℝ) : EReal) := by
    rw [coe_sum]
    exact Finset.sum_congr rfl fun k _ => by rw [hE k, hv k, ← EReal.coe_mul]
  rw [Finset.sum_congr rfl fun k _ => hl k, ← coe_sum, hr, Ideal.div_coe (ne_of_gt hLpos), ← EReal.coe_mul,
    real_row]

/-! ### The whole array -/

/-- On real inputs, self-attention with the softmax taken first equals self-attention with the weighted sum divided
    once. -/
theorem softmaxThen_eq_fused (x : SX.Idx → EReal) (wq : SW.Idx → EReal) (bq : SB.Idx → EReal) (wk : SW.Idx → EReal)
    (bk : SB.Idx → EReal) (wv : SW.Idx → EReal) (bv : SB.Idx → EReal)
    (hx : ∀ i, IsReal (x i)) (hwq : ∀ i, IsReal (wq i)) (hbq : ∀ i, IsReal (bq i))
    (hwk : ∀ i, IsReal (wk i)) (hbk : ∀ i, IsReal (bk i)) (hwv : ∀ i, IsReal (wv i)) (hbv : ∀ i, IsReal (bv i)) :
    softmaxThen x wq bq wk bk wv bv = fused x wq bq wk bk wv bv := by
  funext i
  unfold softmaxThen fused
  rw [scaleQ_eq]
  exact softmaxRow_eq_fusedRow _ _
    (fun k => score_real _ _ _ scaleW_real (proj_real x wq bq hx hwq hbq) (proj_real x wk bk hx hwk hbk) _ _ _)
    (fun k => proj_real x wv bv hx hwv hbv _ _ _)

end Cert.Attention.RealLaw

end
-- ==== Proof.Finite.lean ====
/-
  From the precondition to real-valued inputs.

  The precondition is the conjunction, over the seven argument arrays, of "every entry's absolute value is below +∞",
  each conjunct a reduction by "and" of the entrywise comparison down to one bit, and the claim says the whole bit is 1.
  A conjunction of bits is 1 exactly when each bit is; a reduction by "and" over all axes that is 1 met a 1 at every
  entry; the entry's bit is the comparison max x (−x) < ⊤ (the pattern of +∞ denotes ⊤), and that excludes x = ⊤ and
  x = ⊥ (at either, max x (−x) = ⊤). So every entry of every argument is the image of a real number.
-/
import proofs.«113369_j47820165874215_2_alg».proof.Defs
import proofs.«113369_j47820165874215_2_alg».proof.Proof.Gen.Pre_finite_inputs
import proofs.«113369_j47820165874215_2_alg».proof.Proof.LibRealValued
import Idealize.ShloMosaic.Lib.ReduceAll

noncomputable section

namespace Cert.Attention.Finite

open Idealize.ShloMosaic Idealize.SL.Sem Cert.RealValued Cert.Pre_finite_inputs

/-- A rank-0 shape has one index. -/
instance : Subsingleton S_.Idx := ⟨fun a b => funext fun d => d.elim0⟩

/-- The pattern of +∞ denotes the top of the extended reals. -/
theorem posInf_eq : Ideal.ofBits .f32 0x7F800000#32 = ⊤ := by
  simp [Ideal.ofBits, Ideal.ieee]

/-- An extended real whose absolute value compares below the pattern of +∞ is real. -/
theorem isReal_of_abs_lt (x : EReal)
    (h : Ideal.cmp .olt (max x (-x)) (Ideal.ofBits .f32 0x7F800000#32) = 1#1) : IsReal x := by
  rw [posInf_eq] at h
  have hlt : max x (-x) < ⊤ := by
    unfold Ideal.cmp at h
    by_contra hn
    simp [hn] at h
  induction x using EReal.rec with
  | bot => simp at hlt
  | coe r => exact ⟨r, rfl⟩
  | top => simp at hlt

/-- One entry of one array: the entrywise comparison of |a| against the broadcast +∞ being 1 at an index says the
    entry there is real. -/
theorem elem_real {s : Shape} (hb : S_.BroadcastsInDim s (![] : Fin 0 → Fin s.rank)) (a : FVec Ideal s .f32) (i : s.Idx)
    (h : cmpf .olt (Host.absf a) (broadcastInDim s ![] hb (constant S_ .f32 0x7F800000#32)) i = 1#1) :
    IsReal (a i) :=
  isReal_of_abs_lt (a i) h

/-- The precondition's function being all ones says every entry of every one of the seven arrays is real. -/
theorem real_of_fn [Cert.Pre_finite_inputs.Facts] (a0 : FVec Ideal S4x2048x1024 .f32) (a1 : FVec Ideal S1024x1024 .f32)
    (a2 : FVec Ideal S1024 .f32) (a3 : FVec Ideal S1024x1024 .f32) (a4 : FVec Ideal S1024 .f32)
    (a5 : FVec Ideal S1024x1024 .f32) (a6 : FVec Ideal S1024 .f32)
    (h : Cert.Pre_finite_inputs.fn (F := Ideal) a0 a1 a2 a3 a4 a5 a6 = (fun _ => 1#1)) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  have e := congrFun h (fun d => d.elim0)
  dsimp only [fn, fn_part1] at e
  simp only [andi, IntOp.andi_eq_one] at e
  obtain ⟨⟨⟨⟨⟨⟨e0, e1⟩, e2⟩, e3⟩, e4⟩, e5⟩, e6⟩ := e
  exact ⟨fun i => elem_real _ a0 i (Host.reduce_andi_all _ _ _ _ _ e0 i),
    fun i => elem_real _ a1 i (Host.reduce_andi_all _ _ _ _ _ e1 i),
    fun i => elem_real _ a2 i (Host.reduce_andi_all _ _ _ _ _ e2 i),
    fun i => elem_real _ a3 i (Host.reduce_andi_all _ _ _ _ _ e3 i),
    fun i => elem_real _ a4 i (Host.reduce_andi_all _ _ _ _ _ e4 i),
    fun i => elem_real _ a5 i (Host.reduce_andi_all _ _ _ _ _ e5 i),
    fun i => elem_real _ a6 i (Host.reduce_andi_all _ _ _ _ _ e6 i)⟩

/-- At a memory of which the precondition holds, on every device the seven argument arrays are real-valued. -/
theorem real_args [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg2) i))
      ∧ (∀ i, IsReal (m ((c.tc : Thread Cert.KernelIdeal.nD Cert.KernelIdeal.τ).loc Cert.KernelIdeal.main_arg3) i))
      ∧ (∀ i, IsReal (m ((c.tc : Thread Cert.KernelIdeal.nD Cert.KernelIdeal.τ).loc Cert.KernelIdeal.main_arg4) i))
      ∧ (∀ i, IsReal (m ((c.tc : Thread Cert.KernelIdeal.nD Cert.KernelIdeal.τ).loc Cert.KernelIdeal.main_arg5) i))
      ∧ (∀ i, IsReal (m ((c.tc : Thread Cert.KernelIdeal.nD Cert.KernelIdeal.τ).loc Cert.KernelIdeal.main_arg6) i)) :=
  real_of_fn _ _ _ _ _ _ _ (hpre c)

end Cert.Attention.Finite

end
-- ==== Proof.lean ====
/-
  Single-head self-attention over four sequences of 2048 tokens of width 1024: a kernel program of two regions — the
  three affine projections Q, K, V of the activations, then, per block of 512 query rows, the scores Q Kᵀ scaled by 2⁻⁵,
  each row's maximum subtracted, the exponentials, their products with V summed and the sum divided once by the row's sum
  of exponentials — against a host program that computes the same projections, scales the scores by 1 / √1024, takes the
  softmax of each row (every exponential divided by the row's sum) and only then multiplies by V.

  At the ideal values the changes of float format are the identity, √1024 = 32 and 1 / 32 = 2⁻⁵, the row maximum taken
  once more against −∞ is itself, and on real data a sum of quotients by one nonzero real is the quotient of the sum:
  under the precondition (every input entry a real number) the projections, the scores, the row maxima and the
  exponentials are all real and the sum of a row's exponentials is a positive real, so the two programs compute one
  function, index by index.

  The frames of the two kernel programs are the generated ones; the host program's frame is its generated run with the
  result dropped. The kernel's result is read off its run region by region (KRun, ProjValue, AttnValue, KValue), the host
  program's off its generated run one operation at a time (RefValue), and RealLaw joins the two arrangements on the real
  data Finite extracts from the precondition. The idealization rewrote nothing, so its preservation claim is trivial.
-/
import proofs.«113369_j47820165874215_2_alg».proof.Defs
import proofs.«113369_j47820165874215_2_alg».proof.Proof.Gen.Kernel
import proofs.«113369_j47820165874215_2_alg».proof.Proof.Gen.Kernel.Skeleton
import proofs.«113369_j47820165874215_2_alg».proof.Proof.Gen.Kernel.Launch
import proofs.«113369_j47820165874215_2_alg».proof.Proof.Gen.Kernel.Points
import proofs.«113369_j47820165874215_2_alg».proof.Proof.Gen.Kernel.Frame
import proofs.«113369_j47820165874215_2_alg».proof.Proof.Gen.KernelIdeal
import proofs.«113369_j47820165874215_2_alg».proof.Proof.Gen.KernelIdeal.Skeleton
import proofs.«113369_j47820165874215_2_alg».proof.Proof.Gen.KernelIdeal.Launch
import proofs.«113369_j47820165874215_2_alg».proof.Proof.Gen.KernelIdeal.Points
import proofs.«113369_j47820165874215_2_alg».proof.Proof.Gen.KernelIdeal.Frame
import proofs.«113369_j47820165874215_2_alg».proof.Proof.Gen.ReferenceIdeal
import proofs.«113369_j47820165874215_2_alg».proof.Proof.Gen.ReferenceIdeal.Run
import proofs.«113369_j47820165874215_2_alg».proof.Proof.Gen.ReferenceIdeal.Read
import proofs.«113369_j47820165874215_2_alg».proof.Proof.Gen.Pre_finite_inputs
import proofs.«113369_j47820165874215_2_alg».proof.Proof.KRun
import proofs.«113369_j47820165874215_2_alg».proof.Proof.KValue
import proofs.«113369_j47820165874215_2_alg».proof.Proof.RefValue
import proofs.«113369_j47820165874215_2_alg».proof.Proof.RealLaw
import proofs.«113369_j47820165874215_2_alg».proof.Proof.Finite
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The host program runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, real under the precondition, both programs end at the self-attention of
    the arguments: the kernel program at the arrangement that divides the weighted sum once, the host program at the
    arrangement that takes the softmax first, and the two are one function on real data. -/
theorem algebraic : Cert.algebraic_KernelIdeal_ReferenceIdeal := by
  intro m ρ m' ρ' hpre hagree
  refine ⟨fun c => Cert.Attention.fused
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.AttnResult.result m ρ c), (h c).2⟩)
      (Cert.KernelIdeal.AttnRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := Cert.Attention.Finite.real_args m hpre c
    rw [Cert.ReferenceIdeal.Read.val_main_v28_eq, Cert.Attention.RefValue.result_eq,
      (hagree c).1, (hagree c).2.1, (hagree c).2.2.1, (hagree c).2.2.2.1, (hagree c).2.2.2.2.1,
      (hagree c).2.2.2.2.2.1, (hagree c).2.2.2.2.2.2]
    exact Cert.Attention.RealLaw.softmaxThen_eq_fused _ _ _ _ _ _ _ h0 h1 h2 h3 h4 h5 h6

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
